-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S192x256 : Shape := ⟨2, ![192, 256]⟩
abbrev S256 : Shape := ⟨1, ![256]⟩
abbrev S256x64 : Shape := ⟨2, ![256, 64]⟩
abbrev S64 : Shape := ⟨1, ![64]⟩
abbrev S128x256 : Shape := ⟨2, ![128, 256]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg9 : FVec F S256 .f32) (main_arg10 : FVec F S256x64 .f32) (main_arg11 : FVec F S64 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x64 .f32 := Host.absf main_arg10
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S256x64 .f32) (main_arg7 : FVec F S64 .f32) (main_arg8 : FVec F S128x256 .f32) (main_arg9 : FVec F S256 .f32) (main_arg10 : FVec F S256x64 .f32) (main_arg11 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x64 .f32) (main_arg1 : FVec F S800000x64 .f32) (main_arg2 : IVec S800000 32) (main_arg3 : IVec S800000 32) (main_arg4 : FVec F S192x256 .f32) (main_arg5 : FVec F S256 .f32) (main_arg6 : FVec F S256x64 .f32) (main_arg7 : FVec F S64 .f32) (main_arg8 : FVec F S128x256 .f32) (main_arg9 : FVec F S256 .f32) (main_arg10 : FVec F S256x64 .f32) (main_arg11 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x256 .f32 := Host.absf main_arg4
  let main_cst_2 : FVec F S_ .f32 := constant S_ .f32 0x7F800000#32
  let main_v10 : FVec F S192x256 .f32 := broadcastInDim S192x256 ![] bcast_S_S192x256 main_cst_2
  let main_v11 : IVec S192x256 1 := cmpf .olt main_v9 main_v10
  let main_c_3 : IVec S_ 1 := constantI S_ 1 1#1
  let main_v12 : IVec S_ 1 := (fun x v => Host.reduce IntOp.andi x v reducesTo_S192x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S192x256 : Shape := ⟨2, ![192, 256]⟩
abbrev S256 : Shape := ⟨1, ![256]⟩
abbrev S256x64 : Shape := ⟨2, ![256, 64]⟩
abbrev S64 : Shape := ⟨1, ![64]⟩
abbrev S128x256 : Shape := ⟨2, ![128, 256]⟩
abbrev S_ : Shape := ⟨0, ![]⟩
abbrev S800000x1 : Shape := ⟨2, ![800000, 1]⟩
abbrev S64x256 : Shape := ⟨2, ![64, 256]⟩
abbrev S1x256 : Shape := ⟨2, ![1, 256]⟩
abbrev S1x64 : Shape := ⟨2, ![1, 64]⟩
abbrev S8000x64 : Shape := ⟨2, ![8000, 64]⟩
abbrev S8000x256 : Shape := ⟨2, ![8000, 256]⟩
abbrev S5000x64 : Shape := ⟨2, ![5000, 64]⟩
abbrev S5000x256 : Shape := ⟨2, ![5000, 256]⟩

abbrev nBuf : Space → Nat
  | .hbm => 47
  | .vmem => 25
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S128x256, .f32⟩
  | .hbm, ⟨9, _⟩ => ⟨S256, .f32⟩
  | .hbm, ⟨10, _⟩ => ⟨S256x64, .f32⟩
  | .hbm, ⟨11, _⟩ => ⟨S64, .f32⟩
  | .hbm, ⟨12, _⟩ => ⟨S50000x64, .bf16⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .bf16⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .bf16⟩
  | .hbm, ⟨31, _⟩ => ⟨S64x256, .f32⟩
  | .hbm, ⟨32, _⟩ => ⟨S64x256, .f32⟩
  | .hbm, ⟨33, _⟩ => ⟨S64x256, .f32⟩
  | .hbm, ⟨34, _⟩ => ⟨S1x256, .f32⟩
  | .hbm, ⟨35, _⟩ => ⟨S1x64, .f32⟩
  | .hbm, ⟨36, _⟩ => ⟨S800000x64, .bf16⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S64x256, .f32⟩
  | .hbm, ⟨43, _⟩ => ⟨S64x256, .f32⟩
  | .hbm, ⟨44, _⟩ => ⟨S1x256, .f32⟩
  | .hbm, ⟨45, _⟩ => ⟨S1x64, .f32⟩
  | .hbm, ⟨46, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .bf16⟩
  | .local _ .vmem, ⟨3, _⟩ => ⟨S8000x64, .bf16⟩
  | .local _ .vmem, ⟨4, _⟩ => ⟨S8000x64, .bf16⟩
  | .local _ .vmem, ⟨5, _⟩ => ⟨S8000x64, .bf16⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S1x256, .f32⟩
  | .local _ .vmem, ⟨10, _⟩ => ⟨S256x64, .f32⟩
  | .local _ .vmem, ⟨11, _⟩ => ⟨S1x64, .f32⟩
  | .local _ .vmem, ⟨12, _⟩ => ⟨S8000x64, .bf16⟩
  | .local _ .vmem, ⟨13, _⟩ => ⟨S8000x64, .bf16⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x256, .f32⟩
  | .local _ .vmem, ⟨19, _⟩ => ⟨S64x256, .f32⟩
  | .local _ .vmem, ⟨20, _⟩ => ⟨S1x256, .f32⟩
  | .local _ .vmem, ⟨21, _⟩ => ⟨S256x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S192x256_S64x256_0_0 : S192x256.Slices ![0, 0] S64x256
  slices_S192x256_S64x256_64_0 : S192x256.Slices ![64, 0] S64x256
  slices_S192x256_S64x256_128_0 : S192x256.Slices ![128, 0] S64x256
  shapeCasts_S256_S1x256 : S256.ShapeCasts S1x256
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  packedbf16_S8000x64_S8000x64_0_0 : (Rect.unit (s := S8000x64) ![0, 0] S8000x64.size inb_S8000x64_S8000x64_0_0).PackedRows (EltTy.packing .bf16)
  bcast_S_S50000x64 : S_.BroadcastsInDim S50000x64 (![] : Fin 0 → Fin S50000x64.rank)
  slices_S128x256_S64x256_0_0 : S128x256.Slices ![0, 0] S64x256
  slices_S128x256_S64x256_64_0 : S128x256.Slices ![64, 0] S64x256
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x256_S5000x256 : S1x256.Broadcasts S5000x256
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S8000x64_S64x256_S8000x256_1_0_0_1_n_n_wf : DotDims.WF S8000x64 S64x256 S8000x256 [1] [0] [0] [1] [] []
  dot_S8000x256_S256x64_S8000x64_1_0_0_1_n_n_wf : DotDims.WF S8000x256 S256x64 S8000x64 [1] [0] [0] [1] [] []
  scatter_S50000x64_S800000x1_S800000x64_1_0_0_1_wf : ScatterDims.WF S50000x64 S800000x1 S800000x64 [1] [0] [0] 1
  dot_S5000x64_S64x256_S5000x256_1_0_0_1_n_n_wf : DotDims.WF S5000x64 S64x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .bf16 = 32 ∨ (Rect.block (s := S800000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .bf16 = 32 ∨ (Rect.block (s := S800000x64) S8000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S256x64.size a
  hwx0_7 : ∀ i : grid0.Coords, EltTy.bits .f32 = 32 ∨ (Rect.block (s := S256x64) S256x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .bf16 = 32 ∨ (Rect.block (s := S800000x64) S8000x64.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S64x256.size a
  hwx1_3 : ∀ i : grid1.Coords, EltTy.bits .f32 = 32 ∨ (Rect.block (s := S64x256) S64x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S256x64.size a
  hwx1_5 : ∀ i : grid1.Coords, EltTy.bits .f32 = 32 ∨ (Rect.block (s := S256x64) S256x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x256_S8000x256_1_0_0_1_n_n : DotDims S8000x64 S64x256 S8000x256 where
  lhsContracting := [1]
  rhsContracting := [0]
  lhsNonContracting := [0]
  rhsNonContracting := [1]
  lhsBatch := []
  rhsBatch := []
  wf := dot_S8000x64_S64x256_S8000x256_1_0_0_1_n_n_wf
def dot_S8000x256_S256x64_S8000x64_1_0_0_1_n_n : DotDims S8000x256 S256x64 S8000x64 where
  lhsContracting := [1]
  rhsContracting := [0]
  lhsNonContracting := [0]
  rhsNonContracting := [1]
  lhsBatch := []
  rhsBatch := []
  wf := dot_S8000x256_S256x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg1) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S64x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S192x256 : Shape := ⟨2, ![192, 256]⟩
abbrev S256 : Shape := ⟨1, ![256]⟩
abbrev S256x64 : Shape := ⟨2, ![256, 64]⟩
abbrev S64 : Shape := ⟨1, ![64]⟩
abbrev S128x256 : Shape := ⟨2, ![128, 256]⟩
abbrev S_ : Shape := ⟨0, ![]⟩
abbrev S800000x1 : Shape := ⟨2, ![800000, 1]⟩
abbrev S800000x192 : Shape := ⟨2, ![800000, 192]⟩
abbrev S800000x256 : Shape := ⟨2, ![800000, 256]⟩
abbrev S1x256 : Shape := ⟨2, ![1, 256]⟩
abbrev S1x64 : Shape := ⟨2, ![1, 64]⟩
abbrev S50000x128 : Shape := ⟨2, ![50000, 128]⟩
abbrev S50000x256 : Shape := ⟨2, ![50000, 256]⟩

abbrev nBuf : Space → Nat
  | .hbm => 59
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S128x256, .f32⟩
  | .hbm, ⟨9, _⟩ => ⟨S256, .f32⟩
  | .hbm, ⟨10, _⟩ => ⟨S256x64, .f32⟩
  | .hbm, ⟨11, _⟩ => ⟨S64, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x192, .f32⟩
  | .hbm, ⟨31, _⟩ => ⟨S800000x256, .f32⟩
  | .hbm, ⟨32, _⟩ => ⟨S1x256, .f32⟩
  | .hbm, ⟨33, _⟩ => ⟨S800000x256, .f32⟩
  | .hbm, ⟨34, _⟩ => ⟨S800000x256, .f32⟩
  | .hbm, ⟨35, _⟩ => ⟨S_, .f32⟩
  | .hbm, ⟨36, _⟩ => ⟨S800000x256, .f32⟩
  | .hbm, ⟨37, _⟩ => ⟨S800000x256, .f32⟩
  | .hbm, ⟨38, _⟩ => ⟨S800000x64, .f32⟩
  | .hbm, ⟨39, _⟩ => ⟨S1x64, .f32⟩
  | .hbm, ⟨40, _⟩ => ⟨S800000x64, .f32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x128, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S50000x256, .f32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S50000x64, .f32⟩
  | .hbm, ⟨58, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x192_S192x256_S800000x256_1_0_0_1_n_n_wf : DotDims.WF S800000x192 S192x256 S800000x256 [1] [0] [0] [1] [] []
  dot_S800000x256_S256x64_S800000x64_1_0_0_1_n_n_wf : DotDims.WF S800000x256 S256x64 S800000x64 [1] [0] [0] [1] [] []
  scatter_S50000x64_S800000x1_S800000x64_1_0_0_1_wf : ScatterDims.WF S50000x64 S800000x1 S800000x64 [1] [0] [0] 1
  dot_S50000x128_S128x256_S50000x256_1_0_0_1_n_n_wf : DotDims.WF S50000x128 S128x256 S50000x256 [1] [0] [0] [1] [] []
  dot_S50000x256_S256x64_S50000x64_1_0_0_1_n_n_wf : DotDims.WF S50000x256 S256x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x256_S800000x256_1_0_0_1_n_n : DotDims S800000x192 S192x256 S800000x256 where
  lhsContracting := [1]
  rhsContracting := [0]
  lhsNonContracting := [0]
  rhsNonContracting := [1]
  lhsBatch := []
  rhsBatch := []
  wf := dot_S800000x192_S192x256_S800000x256_1_0_0_1_n_n_wf
def dot_S800000x256_S256x64_S800000x64_1_0_0_1_n_n : DotDims S800000x256 S256x64 S800000x64 where
  lhsContracting := [1]
  rhsContracting := [0]
  lhsNonContracting := [0]
  rhsNonContracting := [1]
  lhsBatch := []
  rhsBatch := []
  wf := dot_S800000x256_S256x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KernelRun.lean ====
/-
  The idealized kernel program's run with its result named.

  The program is two pipelined regions among stretches of host operations. Every weakly fair execution terminates
  without a fault; the arguments end as launched; and the result array ends holding what the second region's
  write-backs leave: the fold of its blocks' flushes over the grid, from the contents the second stretch of host
  operations computed out of the first region's result.
-/
import proofs.«173070_j41008347742228_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second region's output window is the program's result buffer, so at the program's end that buffer holds what
    the region's write-backs leave. -/
theorem result_at_exit (c : Dev nD) :
    W4 m ρ c (Proc.devRef .tc main_v29) = (dat1 (V3 m ρ) c).arrAt 7 cfg1.N :=
  W4_arr m ρ c 7

set_option backward.isDefEq.respectTransparency.types false in
/-- From any memory with zero counters every weakly fair execution of the program terminates, nothing faulting, with
    the result buffer at the second region's folded write-backs and every argument as launched. -/
theorem run : θ_run defs (onTc (τ := τ) (main (F := F))) ⟨m, fun _ => 0, ρ⟩ (fun r => ∀ c : Dev nD,
      r.2.mem ((c.tc : Thread nD τ).loc main_v29) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v29 (by decide))).trans (result_at_exit m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Whole

end
-- ==== Proof.LibPlainProduct.lean ====
/-
  The plain matrix product at the exact extended reals, read at an index given by coordinates.
  For dimension numbers that contract the left operand's axis 1 with the right operand's axis 0 (no batch axes),
  the contraction sum of an `[M, K]` by `[K, N]` product at `(p, q)` is `∑ k, l (p, k) * r (k, q)` over the `K`
  coordinates of the shared axis — for the matrix unit's product into a zero accumulator and for the host's
  `dot_general` alike. General in the three extents and in the operands' formats.
-/
import Idealize.ShloMosaic.Lib.ValueIdx
import Idealize.ShloMosaic.PureOps.Ideal.Laws

namespace Idealize.ShloMosaic.ValueIdx

open Idealize.ShloMosaic

/-- The left operand's row coordinate of a plain product is the result's row, whatever the contraction index. -/
theorem plain_lhsIdx_row {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).lhsIdx j k 0).val = (j 0).val := by
  unfold DotDims.lhsIdx
  rw [dif_neg List.not_mem_nil, dif_pos (List.mem_singleton.mpr rfl)]
  rfl

/-- The right operand's column coordinate of a plain product is the result's column, whatever the contraction index. -/
theorem plain_rhsIdx_col {M K N : ℕ} (wf) (j : (⟨2, ![M, N]⟩ : Shape).Idx)
    (k : (⟨[1], [0], [0], [1], [], [], wf⟩ : DotDims ⟨2, ![M, K]⟩ ⟨2, ![K, N]⟩ ⟨2, ![M, N]⟩).contr.Idx) :
    ((⟨[1], [0], [0], [1], [], [], wf⟩ : DotDims ⟨2, ![M, K]⟩ ⟨2, ![K, N]⟩ ⟨2, ![M, N]⟩).rhsIdx j k 1).val = (j 1).val := by
  unfold DotDims.rhsIdx
  rw [dif_neg List.not_mem_nil, dif_pos (List.mem_singleton.mpr rfl)]
  rfl

/-- The contraction sum of a plain product, re-indexed by the shared axis's coordinate. -/
theorem plain_contr_sum {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ => exact plain_lhsIdx_row wf _ _
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ => exact plain_rhsIdx_col wf _ _)
  rw [el, er]

/-- The matrix unit's plain product into a zero accumulator, at `(p, q)`. -/
theorem matmul_zero_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact plain_contr_sum d hlc hrc hln hrn hlb hrb l r p q

/-- The host's plain `dot_general`, at `(p, q)`. -/
theorem dotGeneral_plain_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact plain_contr_sum d hlc hrc hln hrn hlb hrb l r p q

end Idealize.ShloMosaic.ValueIdx
-- ==== Proof.Dense.lean ====
/-
  The two dense layers of a perceptron with a 256-wide hidden layer and a 64-wide output, on the extended reals,
  written by coordinates: the first layer `x·W₁ + b₁` at (p, q), and `relu(pre)·W₂ + b₂` at (p, j) for any
  pre-activation `pre`. Also the one law the certificate needs about sums: a sum over 192 (or 128) consecutive
  coordinates is the sum of the sums over its blocks of 64, which holds in every commutative additive monoid
  (so on the extended reals without any finiteness).
-/
import Idealize.ShloMosaic.Lib.ValueIdx
import Idealize.ShloMosaic.PureOps.Ideal.Laws

noncomputable section

namespace Cert.Dense

open Idealize.ShloMosaic Idealize.ShloMosaic.ValueIdx

/-- `relu(pre)·W₂ + b₂` at row `p`, column `j`: the sum over the 256 hidden units of the positive part of the
    pre-activation times the second weight, plus the bias. -/
def second {R : ℕ} (pre : Fin R → Fin 256 → EReal) (W2 : (⟨2, ![256, 64]⟩ : Shape).Idx → EReal) (b2 : Fin 64 → EReal)
    (p : Fin R) (j : Fin 64) : EReal :=
  (∑ q : Fin 256, max (pre p q) 0 * W2 (ix2 q j)) + b2 j

/-- `x·W₁ + b₁` at row `p`, hidden unit `q`, for an input of `K` features. -/
def first {R K : ℕ} (x : Fin R → Fin K → EReal) (W1 : (⟨2, ![K, 256]⟩ : Shape).Idx → EReal) (b1 : Fin 256 → EReal)
    (p : Fin R) (q : Fin 256) : EReal :=
  (∑ k : Fin K, x p k * W1 (ix2 k q)) + b1 q

/-- A row entry plus a function of the row and column: the residual connection at (p, j). -/
def residual {R : ℕ} (x : (⟨2, ![R, 64]⟩ : Shape).Idx → EReal) (f : Fin R → Fin 64 → EReal) (p : Fin R) (j : Fin 64) : EReal :=
  x (ix2 p j) + f p j

/-- A sum over `a + b` consecutive coordinates is the sum over the first `a` plus the sum over the last `b`. -/
theorem sum_blocks_two {M : Type*} [AddCommMonoid M] (a b : ℕ) (f : Fin (a + b) → M) :
    ∑ k : Fin (a + b), f k
      = (∑ k : Fin a, f ⟨k.val, by have := k.isLt; omega⟩) + ∑ k : Fin b, f ⟨a + k.val, by have := k.isLt; omega⟩ := by
  rw [Fin.sum_univ_add]
  rfl

/-- A sum over 128 coordinates, by its two blocks of 64. -/
theorem sum_128 {M : Type*} [AddCommMonoid M] (f : Fin 128 → M) :
    ∑ k : Fin 128, f k
      = (∑ k : Fin 64, f ⟨k.val, by have := k.isLt; omega⟩) + ∑ k : Fin 64, f ⟨64 + k.val, by have := k.isLt; omega⟩ :=
  sum_blocks_two 64 64 f

/-- A sum over 192 coordinates, by its three blocks of 64. -/
theorem sum_192 {M : Type*} [AddCommMonoid M] (f : Fin 192 → M) :
    ∑ k : Fin 192, f k
      = ((∑ k : Fin 64, f ⟨k.val, by have := k.isLt; omega⟩) + ∑ k : Fin 64, f ⟨64 + k.val, by have := k.isLt; omega⟩)
        + ∑ k : Fin 64, f ⟨128 + k.val, by have := k.isLt; omega⟩ := by
  rw [sum_blocks_two 128 64 f, sum_128 fun k => f ⟨k.val, by have := k.isLt; omega⟩]

end Cert.Dense

end
-- ==== Proof.Payloads.lean ====
/-
  What each kernel body computes, at one entry of its output block, on the extended reals.

  The message kernel's block entry (p, j) is `relu(pre)·W₂ + b₂` with the pre-activation
  `((e·Wₑ + hₛ·Wₛ) + hᵣ·Wᵣ) + b₁` at (p, q): three products over 64 features each, added in that order. The update
  kernel's entry is the node feature itself plus `relu((h·W_h + agg·W_a) + b₁)·W₂ + b₂`. Changes of float format
  are the identity on the extended reals, the matrix unit's product into a zero accumulator is the plain sum of
  products, and the bias rows [1, n] are read at their one row.
-/
import proofs.«173070_j41008347742228_2_alg».proof.Proof.Gen.KernelIdeal.Skeleton
import proofs.«173070_j41008347742228_2_alg».proof.Proof.LibPlainProduct
import proofs.«173070_j41008347742228_2_alg».proof.Proof.Dense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Idealize.ShloMosaic Idealize.ShloMosaic.ValueIdx Cert.KernelIdeal Cert.KernelIdeal.Gen

/-- The message kernel's pre-activation at (p, q) from its loaded blocks. -/
def msgPre {R : ℕ} (e hs hr : (⟨2, ![R, 64]⟩ : Shape).Idx → EReal) (We Ws Wr : (⟨2, ![64, 256]⟩ : Shape).Idx → EReal)
    (b1 : (⟨2, ![1, 256]⟩ : Shape).Idx → EReal) (p : Fin R) (q : Fin 256) : EReal :=
  (((∑ k : Fin 64, e (ix2 p k) * We (ix2 k q)) + ∑ k : Fin 64, hs (ix2 p k) * Ws (ix2 k q))
    + ∑ k : Fin 64, hr (ix2 p k) * Wr (ix2 k q)) + b1 (ix2 (0 : Fin 1) q)

/-- The update kernel's pre-activation at (p, q) from its loaded blocks. -/
def updPre {R : ℕ} (h agg : (⟨2, ![R, 64]⟩ : Shape).Idx → EReal) (Wh Wa : (⟨2, ![64, 256]⟩ : Shape).Idx → EReal)
    (b1 : (⟨2, ![1, 256]⟩ : Shape).Idx → EReal) (p : Fin R) (q : Fin 256) : EReal :=
  ((∑ k : Fin 64, h (ix2 p k) * Wh (ix2 k q)) + ∑ k : Fin 64, agg (ix2 p k) * Wa (ix2 k q)) + b1 (ix2 (0 : Fin 1) q)

/-- The message kernel's stored value at entry (p, j) of its block. -/
theorem msg_payload_apply (v0 : Vec Ideal S8000x64 .f32) (v2 v4 : Vec Ideal S8000x64 .bf16) (v6 v9 v12 : Vec Ideal S64x256 .f32)
    (v20 : Vec Ideal S1x256 .f32) (v27 : Vec Ideal S256x64 .f32) (v30 : Vec Ideal S1x64 .f32) (p : Fin 8000) (j : Fin 64) :
    k0_pay1 (F := Ideal) v0 v2 v4 v6 v9 v12 v20 v27 v30 (ix2 p j)
      = Dense.second (msgPre v0 v2 v4 v6 v9 v12 v20) v27 (fun j => v30 (ix2 (0 : Fin 1) j)) p j := by
  unfold k0_pay1
  simp only [shapeCast_self, matmul]
  rw [truncf_apply, addf_apply, matmul_zero_plain_apply _ rfl rfl rfl rfl rfl rfl, broadcastTo_1b_ab_apply]
  unfold Dense.second
  refine congrArg (· + _) (Finset.sum_congr rfl fun q _ => ?_)
  rw [truncf_apply, maximumf_apply, addf_apply, addf_apply, addf_apply, matmul_zero_plain_apply _ rfl rfl rfl rfl rfl rfl,
    matmul_zero_plain_apply _ rfl rfl rfl rfl rfl rfl, matmul_zero_plain_apply _ rfl rfl rfl rfl rfl rfl,
    broadcastTo_1b_ab_apply, broadcast_apply]
  show max _ (Ideal.ofBits .f32 0x00000000#32) * _ = _
  rw [Ideal.ofBits_zero_f32]
  rfl

/-- The update kernel's stored value at entry (p, j) of its block. -/
theorem upd_payload_apply (v0 v2 : Vec Ideal S5000x64 .f32) (v5 v8 : Vec Ideal S64x256 .f32) (v14 : Vec Ideal S1x256 .f32)
    (v21 : Vec Ideal S256x64 .f32) (v24 : Vec Ideal S1x64 .f32) (v28 : Vec Ideal S5000x64 .f32) (p : Fin 5000) (j : Fin 64) :
    k1_pay1 (F := Ideal) v0 v2 v5 v8 v14 v21 v24 v28 (ix2 p j)
      = v28 (ix2 p j) + Dense.second (updPre v0 v2 v5 v8 v14) v21 (fun j => v24 (ix2 (0 : Fin 1) j)) p j := by
  unfold k1_pay1
  simp only [shapeCast_self, matmul]
  rw [addf_apply, addf_apply, matmul_zero_plain_apply _ rfl rfl rfl rfl rfl rfl, broadcastTo_1b_ab_apply]
  unfold Dense.second
  refine congrArg (_ + ·) (congrArg (· + _) (Finset.sum_congr rfl fun q _ => ?_))
  rw [truncf_apply, maximumf_apply, addf_apply, addf_apply, matmul_zero_plain_apply _ rfl rfl rfl rfl rfl rfl,
    matmul_zero_plain_apply _ rfl rfl rfl rfl rfl rfl, broadcastTo_1b_ab_apply, broadcast_apply]
  show max _ (Ideal.ofBits .f32 0x00000000#32) * _ = _
  rw [Ideal.ofBits_zero_f32]
  rfl

end Cert.KernelIdeal.Payloads

end
-- ==== Proof.MessageRegion.lean ====
/-
  The first region's result array as one function of the arrays the region finds.

  The grid has 100 points; point t handles rows 8000·t … 8000·t + 7999 of the edge arrays (edge features, gathered
  sender rows, gathered receiver rows) and reads the three 64-row slices of the first weight, the bias rows and the
  second weight whole. Each point writes back its block of the message array, and the blocks tile the array, so the
  array ends holding, at every (row, column), the message perceptron of that row.
-/
import proofs.«173070_j41008347742228_2_alg».proof.Proof.Gen.KernelIdeal.Frame
import proofs.«173070_j41008347742228_2_alg».proof.Proof.Payloads

set_option maxRecDepth 16384

noncomputable section

namespace Cert.KernelIdeal.Message

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payloads

/-! ## One block entry, from blocks that are rows `r … r + 7999` of whole arrays -/

/-- Entry (p, j) of a block whose three edge blocks are rows `r + p` of whole arrays `A0`, `A1`, `A2`: the message
    perceptron of row `r + p` of those arrays. -/
theorem block_entry (x0 : Vec Ideal S8000x64 .f32) (x1 x2 : Vec Ideal S8000x64 .bf16) (x3 x4 x5 : Vec Ideal S64x256 .f32)
    (x6 : Vec Ideal S1x256 .f32) (x7 : Vec Ideal S256x64 .f32) (x8 : Vec Ideal S1x64 .f32)
    (A0 A1 A2 : S800000x64.Idx → EReal) (r : ℕ) (hr : r + 8000 ≤ 800000)
    (h0 : ∀ (p : Fin 8000) (k : Fin 64), x0 (ix2 p k) = A0 (ix2 ⟨r + p.val, by have := p.isLt; omega⟩ k))
    (h1 : ∀ (p : Fin 8000) (k : Fin 64), x1 (ix2 p k) = A1 (ix2 ⟨r + p.val, by have := p.isLt; omega⟩ k))
    (h2 : ∀ (p : Fin 8000) (k : Fin 64), x2 (ix2 p k) = A2 (ix2 ⟨r + p.val, by have := p.isLt; omega⟩ k))
    (y : S8000x64.Idx) (i : S800000x64.Idx) (hi0 : (i 0).val = r + (y 0).val) (hi1 : (i 1).val = (y 1).val) :
    k0_pay1 (F := Ideal) x0 x1 x2 x3 x4 x5 x6 x7 x8 y
      = Dense.second (msgPre A0 A1 A2 x3 x4 x5 x6) x7 (fun j => x8 (ix2 (0 : Fin 1) j)) (i 0) (i 1) := by
  obtain ⟨p, j, rfl⟩ : ∃ (p : Fin 8000) (j : Fin 64), y = ix2 p j := ⟨y 0, y 1, eq_ix2 y⟩
  have e0 : (i 0) = (⟨r + p.val, by have := p.isLt; omega⟩ : Fin 800000) := Fin.ext hi0
  have e1 : (i 1) = j := Fin.ext hi1
  rw [msg_payload_apply, e0, e1]
  unfold Dense.second msgPre
  simp only [h0, h1, h2]

/-! ## The region, at any entry contents `V` -/

variable (V : (c : Dev nD) → (b : Ref sig .tc) → Buf (Elt Ideal) ((c : Thread nD τ).loc b))

theorem hz : (![0, 0] : Fin 2 → Nat) = fun _ => 0 := funext fun a => by fin_cases a <;> rfl

/-- The message array: at (row, column) the message perceptron of that row's edge features, sender row and receiver
    row, with the weights and biases the region finds. -/
def msgArray (c : Dev nD) : S800000x64.Idx → EReal := fun i =>
  Dense.second (msgPre (V c main_arg1 : S800000x64.Idx → EReal) (V c main_v7 : S800000x64.Idx → EReal)
      (V c main_v14 : S800000x64.Idx → EReal) (V c main_v15 : S64x256.Idx → EReal) (V c main_v16 : S64x256.Idx → EReal)
      (V c main_v17 : S64x256.Idx → EReal) (V c main_v18 : S1x256.Idx → EReal))
    (V c main_arg6 : S256x64.Idx → EReal) (fun j => (V c main_v19 : S1x64.Idx → EReal) (ix2 (0 : Fin 1) j)) (i 0) (i 1)

/-- The printed index maps over the grid: the three edge windows and the output window move with the point along the
    rows; the weight and bias windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem point_lt (t : Fin cfg0.N) : t.val * 8000 + 8000 ≤ 800000 := by
  have h : t.val < 100 := lt_of_lt_of_eq t.isLt N_0
  omega

/-- The edge-feature block at point `t` is rows `8000·t + p` of the array. -/
theorem blk0_read (c : Dev nD) (t : Fin cfg0.N) (p : Fin 8000) (k : Fin 64) :
    iblk0 V c 0 t (ix2 p k)
      = (V c main_arg1 : S800000x64.Idx → EReal) (ix2 ⟨t.val * 8000 + p.val, by have := p.isLt; have := point_lt t; omega⟩ k) := by
  show (V c main_arg1 : S800000x64.Idx → EReal) (((cfg0.win 0).blk t).view.emb (ix2 p k)) = _
  refine congrArg _ (funext fun a => Fin.ext ?_)
  obtain ⟨e0, e1, -⟩ := idx_facts t
  match a with
  | ⟨0, _⟩ => show win0_0.index t (0 : Fin 2) * 8000 + 1 * p.val = t.val * 8000 + p.val; omega
  | ⟨1, _⟩ => show win0_0.index t (1 : Fin 2) * 64 + 1 * k.val = k.val; omega

/-- The sender-row block at point `t` is rows `8000·t + p` of the array. -/
theorem blk1_read (c : Dev nD) (t : Fin cfg0.N) (p : Fin 8000) (k : Fin 64) :
    iblk0 V c 1 t (ix2 p k)
      = (V c main_v7 : S800000x64.Idx → EReal) (ix2 ⟨t.val * 8000 + p.val, by have := p.isLt; have := point_lt t; omega⟩ k) := by
  show (V c main_v7 : S800000x64.Idx → EReal) (((cfg0.win 1).blk t).view.emb (ix2 p k)) = _
  refine congrArg _ (funext fun a => Fin.ext ?_)
  obtain ⟨-, -, e0, e1, -⟩ := idx_facts t
  match a with
  | ⟨0, _⟩ => show win0_1.index t (0 : Fin 2) * 8000 + 1 * p.val = t.val * 8000 + p.val; omega
  | ⟨1, _⟩ => show win0_1.index t (1 : Fin 2) * 64 + 1 * k.val = k.val; omega

/-- The receiver-row block at point `t` is rows `8000·t + p` of the array. -/
theorem blk2_read (c : Dev nD) (t : Fin cfg0.N) (p : Fin 8000) (k : Fin 64) :
    iblk0 V c 2 t (ix2 p k)
      = (V c main_v14 : S800000x64.Idx → EReal) (ix2 ⟨t.val * 8000 + p.val, by have := p.isLt; have := point_lt t; omega⟩ k) := by
  show (V c main_v14 : S800000x64.Idx → EReal) (((cfg0.win 2).blk t).view.emb (ix2 p k)) = _
  refine congrArg _ (funext fun a => Fin.ext ?_)
  obtain ⟨-, -, -, -, e0, e1, -⟩ := idx_facts t
  match a with
  | ⟨0, _⟩ => show win0_2.index t (0 : Fin 2) * 8000 + 1 * p.val = t.val * 8000 + p.val; omega
  | ⟨1, _⟩ => show win0_2.index t (1 : Fin 2) * 64 + 1 * k.val = k.val; omega

/-- A weight or bias window's block is its whole array, at every point. -/
theorem blk3_read (c : Dev nD) (t : Fin cfg0.N) : iblk0 V c 3 t = (V c main_v15 : S64x256.Idx → EReal) := by
  funext y
  show (V c main_v15 : S64x256.Idx → EReal) (((cfg0.win 3).blk t).view.emb y) = _
  refine congrArg _ (funext fun a => Fin.ext ?_)
  obtain ⟨-, -, -, -, -, -, e0, e1, -⟩ := idx_facts t
  match a with
  | ⟨0, _⟩ => show win0_3.index t (0 : Fin 2) * 64 + 1 * (y 0).val = (y 0).val; omega
  | ⟨1, _⟩ => show win0_3.index t (1 : Fin 2) * 256 + 1 * (y 1).val = (y 1).val; omega
theorem blk4_read (c : Dev nD) (t : Fin cfg0.N) : iblk0 V c 4 t = (V c main_v16 : S64x256.Idx → EReal) := by
  funext y
  show (V c main_v16 : S64x256.Idx → EReal) (((cfg0.win 4).blk t).view.emb y) = _
  refine congrArg _ (funext fun a => Fin.ext ?_)
  obtain ⟨-, -, -, -, -, -, -, -, e0, e1, -⟩ := idx_facts t
  match a with
  | ⟨0, _⟩ => show win0_4.index t (0 : Fin 2) * 64 + 1 * (y 0).val = (y 0).val; omega
  | ⟨1, _⟩ => show win0_4.index t (1 : Fin 2) * 256 + 1 * (y 1).val = (y 1).val; omega
theorem blk5_read (c : Dev nD) (t : Fin cfg0.N) : iblk0 V c 5 t = (V c main_v17 : S64x256.Idx → EReal) := by
  funext y
  show (V c main_v17 : S64x256.Idx → EReal) (((cfg0.win 5).blk t).view.emb y) = _
  refine congrArg _ (funext fun a => Fin.ext ?_)
  obtain ⟨-, -, -, -, -, -, -, -, -, -, e0, e1, -⟩ := idx_facts t
  match a with
  | ⟨0, _⟩ => show win0_5.index t (0 : Fin 2) * 64 + 1 * (y 0).val = (y 0).val; omega
  | ⟨1, _⟩ => show win0_5.index t (1 : Fin 2) * 256 + 1 * (y 1).val = (y 1).val; omega
theorem blk6_read (c : Dev nD) (t : Fin cfg0.N) : iblk0 V c 6 t = (V c main_v18 : S1x256.Idx → EReal) := by
  funext y
  show (V c main_v18 : S1x256.Idx → EReal) (((cfg0.win 6).blk t).view.emb y) = _
  refine congrArg _ (funext fun a => Fin.ext ?_)
  obtain ⟨-, -, -, -, -, -, -, -, -, -, -, -, e0, e1, -⟩ := idx_facts t
  match a with
  | ⟨0, _⟩ => show win0_6.index t (0 : Fin 2) * 1 + 1 * (y 0).val = (y 0).val; omega
  | ⟨1, _⟩ => show win0_6.index t (1 : Fin 2) * 256 + 1 * (y 1).val = (y 1).val; omega
theorem blk7_read (c : Dev nD) (t : Fin cfg0.N) : iblk0 V c 7 t = (V c main_arg6 : S256x64.Idx → EReal) := by
  funext y
  show (V c main_arg6 : S256x64.Idx → EReal) (((cfg0.win 7).blk t).view.emb y) = _
  refine congrArg _ (funext fun a => Fin.ext ?_)
  obtain ⟨-, -, -, -, -, -, -, -, -, -, -, -, -, -, e0, e1, -⟩ := idx_facts t
  match a with
  | ⟨0, _⟩ => show win0_7.index t (0 : Fin 2) * 256 + 1 * (y 0).val = (y 0).val; omega
  | ⟨1, _⟩ => show win0_7.index t (1 : Fin 2) * 64 + 1 * (y 1).val = (y 1).val; omega
theorem blk8_read (c : Dev nD) (t : Fin cfg0.N) : iblk0 V c 8 t = (V c main_v19 : S1x64.Idx → EReal) := by
  funext y
  show (V c main_v19 : S1x64.Idx → EReal) (((cfg0.win 8).blk t).view.emb y) = _
  refine congrArg _ (funext fun a => Fin.ext ?_)
  obtain ⟨-, -, -, -, -, -, -, -, -, -, -, -, -, -, -, -, e0, e1, -⟩ := idx_facts t
  match a with
  | ⟨0, _⟩ => show win0_8.index t (0 : Fin 2) * 1 + 1 * (y 0).val = (y 0).val; omega
  | ⟨1, _⟩ => show win0_8.index t (1 : Fin 2) * 64 + 1 * (y 1).val = (y 1).val; omega

/-- What point `t` writes back is its block of the message array. -/
theorem flushed_eq (c : Dev nD) (t : Fin cfg0.N) :
    (dat0 V c).flushed 9 t = ((cfg0.win 9).blk t).view.read (Elt Ideal) (msgArray V c) := by
  show (cfg0.win 9).cut (grid0.coords t) ((dat0 V c).after 9 t) = _
  rw [after0_9]
  unfold out0_9
  rw [View.canon_unit_zero hz]
  simp only [View.ld_unit_zero (S := S8000x64) hz, View.ld_unit_zero (S := S64x256) hz, View.ld_unit_zero (S := S1x256) hz,
    View.ld_unit_zero (S := S256x64) hz, View.ld_unit_zero (S := S1x64) hz]
  rw [blk3_read, blk4_read, blk5_read, blk6_read, blk7_read, blk8_read]
  funext y
  obtain ⟨-, -, -, -, -, -, -, -, -, -, -, -, -, -, -, -, -, -, e0, e1⟩ := idx_facts t
  exact block_entry _ _ _ _ _ _ _ _ _ _ _ _ (t.val * 8000) (point_lt t) (blk0_read V c t) (blk1_read V c t) (blk2_read V c t) y
    (((cfg0.win 9).blk t).view.emb y)
    (show win0_9.index t (0 : Fin 2) * 8000 + 1 * (y 0).val = t.val * 8000 + (y 0).val by omega)
    (show win0_9.index t (1 : Fin 2) * 64 + 1 * (y 1).val = (y 1).val by omega)

/-- An index of the message array is in point `t`'s block iff each coordinate is in the block's range on its axis. -/
theorem mem_blk (t : Fin cfg0.N) (i : S800000x64.Idx) :
    i ∈ ((cfg0.win 9).blk t).view.set ↔ ∀ a : Fin 2, win0_9.index t a * S8000x64.size a ≤ (i a).val ∧ (i a).val < win0_9.index t a * S8000x64.size a + S8000x64.size a := by
  show i ∈ ((View.whole main_v20).slice (win0_9.rect t)).set ↔ _
  rw [View.set_slice_whole, Rect.mem_set_unit]
  exact Iff.rfl

/-- Every row lies in the block of the point `row / 8000`. -/
theorem cover (i : S800000x64.Idx) : ∃ t : Fin cfg0.N, (cfg0.win 9).flush t = true ∧ i ∈ ((cfg0.win 9).blk t).view.set := by
  have hi0 : (i 0).val < 800000 := (i 0).isLt
  have hi1 : (i 1).val < 64 := (i 1).isLt
  have hN : (i 0).val / 8000 < cfg0.N := lt_of_lt_of_eq (show (i 0).val / 8000 < 100 by omega) N_0.symm
  refine ⟨⟨(i 0).val / 8000, hN⟩, flush0_9 _, ?_⟩
  rw [mem_blk]
  obtain ⟨-, -, -, -, -, -, -, -, -, -, -, -, -, -, -, -, -, -, e0, e1⟩ := idx_facts ⟨(i 0).val / 8000, hN⟩
  intro a
  match a with
  | ⟨0, _⟩ =>
    show win0_9.index ⟨(i 0).val / 8000, hN⟩ (0 : Fin 2) * 8000 ≤ (i 0).val ∧ (i 0).val < win0_9.index ⟨(i 0).val / 8000, hN⟩ (0 : Fin 2) * 8000 + 8000
    rw [e0]; show (i 0).val / 8000 * 8000 ≤ (i 0).val ∧ (i 0).val < (i 0).val / 8000 * 8000 + 8000; omega
  | ⟨1, _⟩ =>
    show win0_9.index ⟨(i 0).val / 8000, hN⟩ (1 : Fin 2) * 64 ≤ (i 1).val ∧ (i 1).val < win0_9.index ⟨(i 0).val / 8000, hN⟩ (1 : Fin 2) * 64 + 64
    rw [e1]; omega

/-- The first region's result array after its run is the message array. -/
theorem final (c : Dev nD) : (dat0 V c).arrAt 9 cfg0.N = msgArray V c :=
  (dat0 V c).arrAt_eq_of_cover 9 (msgArray V c) (fun t _ => flushed_eq V c t) cover

end Cert.KernelIdeal.Message

end
-- ==== Proof.UpdateRegion.lean ====
/-
  The second region's result array as one function of the arrays the region finds.

  The grid has 10 points; point t handles rows 5000·t … 5000·t + 4999 of the node features and of the aggregated
  messages and reads the two 64-row slices of the first weight, the bias rows and the second weight whole. Each point
  writes back its block of the result, and the blocks tile the array, so the array ends holding, at every
  (row, column), the node feature plus the update perceptron of that row.
-/
import proofs.«173070_j41008347742228_2_alg».proof.Proof.Gen.KernelIdeal.Frame
import proofs.«173070_j41008347742228_2_alg».proof.Proof.Payloads

set_option maxRecDepth 16384

noncomputable section

namespace Cert.KernelIdeal.Update

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payloads

/-! ## One block entry, from blocks that are rows `r … r + 4999` of whole arrays -/

/-- Entry (p, j) of a block whose node-feature and aggregate blocks are rows `r + p` of whole arrays `A0`, `A1`: the
    node feature plus the update perceptron of row `r + p` of those arrays. -/
theorem block_entry (x0 x1 : Vec Ideal S5000x64 .f32) (x2 x3 : Vec Ideal S64x256 .f32)
    (x4 : Vec Ideal S1x256 .f32) (x5 : Vec Ideal S256x64 .f32) (x6 : Vec Ideal S1x64 .f32)
    (A0 A1 : S50000x64.Idx → EReal) (r : ℕ) (hr : r + 5000 ≤ 50000)
    (h0 : ∀ (p : Fin 5000) (k : Fin 64), x0 (ix2 p k) = A0 (ix2 ⟨r + p.val, by have := p.isLt; omega⟩ k))
    (h1 : ∀ (p : Fin 5000) (k : Fin 64), x1 (ix2 p k) = A1 (ix2 ⟨r + p.val, by have := p.isLt; omega⟩ k))
    (y : S5000x64.Idx) (i : S50000x64.Idx) (hi0 : (i 0).val = r + (y 0).val) (hi1 : (i 1).val = (y 1).val) :
    k1_pay1 (F := Ideal) x0 x1 x2 x3 x4 x5 x6 x0 y
      = Dense.residual A0 (Dense.second (updPre A0 A1 x2 x3 x4) x5 (fun j => x6 (ix2 (0 : Fin 1) j))) (i 0) (i 1) := by
  obtain ⟨p, j, rfl⟩ : ∃ (p : Fin 5000) (j : Fin 64), y = ix2 p j := ⟨y 0, y 1, eq_ix2 y⟩
  have e0 : (i 0) = (⟨r + p.val, by have := p.isLt; omega⟩ : Fin 50000) := Fin.ext hi0
  have e1 : (i 1) = j := Fin.ext hi1
  rw [upd_payload_apply, e0, e1, h0]
  unfold Dense.residual Dense.second updPre
  simp only [h0, h1]

/-! ## The region, at any entry contents `V` -/

variable (V : (c : Dev nD) → (b : Ref sig .tc) → Buf (Elt Ideal) ((c : Thread nD τ).loc b))

theorem hz : (![0, 0] : Fin 2 → Nat) = fun _ => 0 := funext fun a => by fin_cases a <;> rfl

/-- The result array: at (row, column) the node feature plus the update perceptron of that row's node features and
    aggregated messages, with the weights and biases the region finds. -/
def updArray (c : Dev nD) : S50000x64.Idx → EReal := fun i =>
  Dense.residual (V c main_arg0 : S50000x64.Idx → EReal)
    (Dense.second (updPre (V c main_arg0 : S50000x64.Idx → EReal) (V c main_v24 : S50000x64.Idx → EReal)
      (V c main_v25 : S64x256.Idx → EReal) (V c main_v26 : S64x256.Idx → EReal) (V c main_v27 : S1x256.Idx → EReal))
    (V c main_arg10 : S256x64.Idx → EReal) (fun j => (V c main_v28 : S1x64.Idx → EReal) (ix2 (0 : Fin 1) j))) (i 0) (i 1)

/-- The printed index maps over the grid: the node-feature, aggregate and output windows move with the point along
    the rows; the weight and bias windows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem point_lt (t : Fin cfg1.N) : t.val * 5000 + 5000 ≤ 50000 := by
  have h : t.val < 10 := lt_of_lt_of_eq t.isLt N_1
  omega

/-- The node-feature block at point `t` is rows `5000·t + p` of the array. -/
theorem blk0_read (c : Dev nD) (t : Fin cfg1.N) (p : Fin 5000) (k : Fin 64) :
    iblk1 V c 0 t (ix2 p k)
      = (V c main_arg0 : S50000x64.Idx → EReal) (ix2 ⟨t.val * 5000 + p.val, by have := p.isLt; have := point_lt t; omega⟩ k) := by
  show (V c main_arg0 : S50000x64.Idx → EReal) (((cfg1.win 0).blk t).view.emb (ix2 p k)) = _
  refine congrArg _ (funext fun a => Fin.ext ?_)
  obtain ⟨e0, e1, -⟩ := idx_facts t
  match a with
  | ⟨0, _⟩ => show win1_0.index t (0 : Fin 2) * 5000 + 1 * p.val = t.val * 5000 + p.val; omega
  | ⟨1, _⟩ => show win1_0.index t (1 : Fin 2) * 64 + 1 * k.val = k.val; omega

/-- The aggregate block at point `t` is rows `5000·t + p` of the array. -/
theorem blk1_read (c : Dev nD) (t : Fin cfg1.N) (p : Fin 5000) (k : Fin 64) :
    iblk1 V c 1 t (ix2 p k)
      = (V c main_v24 : S50000x64.Idx → EReal) (ix2 ⟨t.val * 5000 + p.val, by have := p.isLt; have := point_lt t; omega⟩ k) := by
  show (V c main_v24 : S50000x64.Idx → EReal) (((cfg1.win 1).blk t).view.emb (ix2 p k)) = _
  refine congrArg _ (funext fun a => Fin.ext ?_)
  obtain ⟨-, -, e0, e1, -⟩ := idx_facts t
  match a with
  | ⟨0, _⟩ => show win1_1.index t (0 : Fin 2) * 5000 + 1 * p.val = t.val * 5000 + p.val; omega
  | ⟨1, _⟩ => show win1_1.index t (1 : Fin 2) * 64 + 1 * k.val = k.val; omega

/-- A weight or bias window's block is its whole array, at every point. -/
theorem blk2_read (c : Dev nD) (t : Fin cfg1.N) : iblk1 V c 2 t = (V c main_v25 : S64x256.Idx → EReal) := by
  funext y
  show (V c main_v25 : S64x256.Idx → EReal) (((cfg1.win 2).blk t).view.emb y) = _
  refine congrArg _ (funext fun a => Fin.ext ?_)
  obtain ⟨-, -, -, -, e0, e1, -⟩ := idx_facts t
  match a with
  | ⟨0, _⟩ => show win1_2.index t (0 : Fin 2) * 64 + 1 * (y 0).val = (y 0).val; omega
  | ⟨1, _⟩ => show win1_2.index t (1 : Fin 2) * 256 + 1 * (y 1).val = (y 1).val; omega
theorem blk3_read (c : Dev nD) (t : Fin cfg1.N) : iblk1 V c 3 t = (V c main_v26 : S64x256.Idx → EReal) := by
  funext y
  show (V c main_v26 : S64x256.Idx → EReal) (((cfg1.win 3).blk t).view.emb y) = _
  refine congrArg _ (funext fun a => Fin.ext ?_)
  obtain ⟨-, -, -, -, -, -, e0, e1, -⟩ := idx_facts t
  match a with
  | ⟨0, _⟩ => show win1_3.index t (0 : Fin 2) * 64 + 1 * (y 0).val = (y 0).val; omega
  | ⟨1, _⟩ => show win1_3.index t (1 : Fin 2) * 256 + 1 * (y 1).val = (y 1).val; omega
theorem blk4_read (c : Dev nD) (t : Fin cfg1.N) : iblk1 V c 4 t = (V c main_v27 : S1x256.Idx → EReal) := by
  funext y
  show (V c main_v27 : S1x256.Idx → EReal) (((cfg1.win 4).blk t).view.emb y) = _
  refine congrArg _ (funext fun a => Fin.ext ?_)
  obtain ⟨-, -, -, -, -, -, -, -, e0, e1, -⟩ := idx_facts t
  match a with
  | ⟨0, _⟩ => show win1_4.index t (0 : Fin 2) * 1 + 1 * (y 0).val = (y 0).val; omega
  | ⟨1, _⟩ => show win1_4.index t (1 : Fin 2) * 256 + 1 * (y 1).val = (y 1).val; omega
theorem blk5_read (c : Dev nD) (t : Fin cfg1.N) : iblk1 V c 5 t = (V c main_arg10 : S256x64.Idx → EReal) := by
  funext y
  show (V c main_arg10 : S256x64.Idx → EReal) (((cfg1.win 5).blk t).view.emb y) = _
  refine congrArg _ (funext fun a => Fin.ext ?_)
  obtain ⟨-, -, -, -, -, -, -, -, -, -, e0, e1, -⟩ := idx_facts t
  match a with
  | ⟨0, _⟩ => show win1_5.index t (0 : Fin 2) * 256 + 1 * (y 0).val = (y 0).val; omega
  | ⟨1, _⟩ => show win1_5.index t (1 : Fin 2) * 64 + 1 * (y 1).val = (y 1).val; omega
theorem blk6_read (c : Dev nD) (t : Fin cfg1.N) : iblk1 V c 6 t = (V c main_v28 : S1x64.Idx → EReal) := by
  funext y
  show (V c main_v28 : S1x64.Idx → EReal) (((cfg1.win 6).blk t).view.emb y) = _
  refine congrArg _ (funext fun a => Fin.ext ?_)
  obtain ⟨-, -, -, -, -, -, -, -, -, -, -, -, e0, e1, -⟩ := idx_facts t
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- What point `t` writes back is its block of the result array. -/
theorem flushed_eq (c : Dev nD) (t : Fin cfg1.N) :
    (dat1 V c).flushed 7 t = ((cfg1.win 7).blk t).view.read (Elt Ideal) (updArray V c) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x256) hz, View.ld_unit_zero (S := S1x256) hz,
    View.ld_unit_zero (S := S256x64) hz, View.ld_unit_zero (S := S1x64) hz]
  rw [blk2_read, blk3_read, blk4_read, blk5_read, blk6_read]
  funext y
  obtain ⟨-, -, -, -, -, -, -, -, -, -, -, -, -, -, e0, e1⟩ := idx_facts t
  exact block_entry _ _ _ _ _ _ _ _ _ (t.val * 5000) (point_lt t) (blk0_read V c t) (blk1_read V c t) y
    (((cfg1.win 7).blk t).view.emb y)
    (show win1_7.index t (0 : Fin 2) * 5000 + 1 * (y 0).val = t.val * 5000 + (y 0).val by omega)
    (show win1_7.index t (1 : Fin 2) * 64 + 1 * (y 1).val = (y 1).val by omega)

/-- An index of the result array is in point `t`'s block iff each coordinate is in the block's range on its axis. -/
theorem mem_blk (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v29).slice (win1_7.rect t)).set ↔ _
  rw [View.set_slice_whole, Rect.mem_set_unit]
  exact Iff.rfl

/-- Every row lies in the block of the point `row / 5000`. -/
theorem cover (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  have hN : (i 0).val / 5000 < cfg1.N := lt_of_lt_of_eq (show (i 0).val / 5000 < 10 by omega) N_1.symm
  refine ⟨⟨(i 0).val / 5000, hN⟩, flush1_7 _, ?_⟩
  rw [mem_blk]
  obtain ⟨-, -, -, -, -, -, -, -, -, -, -, -, -, -, e0, e1⟩ := idx_facts ⟨(i 0).val / 5000, hN⟩
  intro a
  match a with
  | ⟨0, _⟩ =>
    show win1_7.index ⟨(i 0).val / 5000, hN⟩ (0 : Fin 2) * 5000 ≤ (i 0).val ∧ (i 0).val < win1_7.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, hN⟩ (1 : Fin 2) * 64 ≤ (i 1).val ∧ (i 1).val < win1_7.index ⟨(i 0).val / 5000, hN⟩ (1 : Fin 2) * 64 + 64
    rw [e1]; omega

/-- The second region's result array after its run is the result array above. -/
theorem final (c : Dev nD) : (dat1 V c).arrAt 7 cfg1.N = updArray V c :=
  (dat1 V c).arrAt_eq_of_cover 7 (updArray V c) (fun t _ => flushed_eq V c t) cover

end Cert.KernelIdeal.Update

end
-- ==== Proof.KernelHost.lean ====
/-
  What the host operations of the idealized kernel program leave in the buffers each region reads.

  Before the first region: the node features (format changed, which is the identity on the extended reals) gathered
  at the sender and at the receiver indices, the three 64-row slices of the first message weight, and the two message
  biases as [1, n] rows. Between the regions: the first region's messages (format changed back) scattered and added
  at the receiver indices into zeros, the two 64-row slices of the first update weight, and the two update biases as
  rows. Buffers no operation writes keep the launch contents.
-/
import proofs.«173070_j41008347742228_2_alg».proof.Proof.Gen.KernelIdeal.Frame
import Idealize.ShloMosaic.PureOps.Ideal.Laws

set_option maxRecDepth 16384

noncomputable section

namespace Cert.KernelIdeal.HostSide

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-! ## At the first region's entry -/

theorem entry0_arg1 (c : Dev nD) : V1 m ρ c main_arg1 = (m ((c : Thread nD τ).loc main_arg1)) := by
  show StableHlo.after hostOps0 (W0 m ρ c) (Proc.devRef .tc main_arg1) = _
  after_results
  all_goals rfl

theorem entry0_arg6 (c : Dev nD) : V1 m ρ c main_arg6 = (m ((c : Thread nD τ).loc main_arg6)) := by
  show StableHlo.after hostOps0 (W0 m ρ c) (Proc.devRef .tc main_arg6) = _
  after_results
  all_goals rfl

/-- The sender rows: the node features gathered at the (wrapped) sender indices. -/
theorem entry0_v7 (c : Dev nD) : (V1 m ρ c main_v7 : S800000x64.Idx → EReal)
    = Host.gather gather_S50000x64_S800000x1_S800000x64_1_0_n_n_0_1_164 (truncf (F := Ideal) .bf16 (m ((c : Thread nD τ).loc main_arg0)) bitsLt_bf16_f32) (broadcastInDim S800000x1 ![0] bcast_S800000_S800000x1_0 (select (cmpi .slt (m ((c : Thread nD τ).loc main_arg2)) (broadcastInDim S800000 ![] bcast_S_S800000 (constantI S_ 32 0#32))) (addi (m ((c : Thread nD τ).loc main_arg2)) (broadcastInDim S800000 ![] bcast_S_S800000 (constantI S_ 32 50000#32))) (m ((c : Thread nD τ).loc main_arg2)))) := by
  show StableHlo.after hostOps0 (W0 m ρ c) (Proc.devRef .tc main_v7) = _
  after_results
  all_goals rfl

/-- The receiver rows: the node features gathered at the (wrapped) receiver indices. -/
theorem entry0_v14 (c : Dev nD) : (V1 m ρ c main_v14 : S800000x64.Idx → EReal)
    = Host.gather gather_S50000x64_S800000x1_S800000x64_1_0_n_n_0_1_164 (truncf (F := Ideal) .bf16 (m ((c : Thread nD τ).loc main_arg0)) bitsLt_bf16_f32) (broadcastInDim S800000x1 ![0] bcast_S800000_S800000x1_0 (select (cmpi .slt (m ((c : Thread nD τ).loc main_arg3)) (broadcastInDim S800000 ![] bcast_S_S800000 (constantI S_ 32 0#32))) (addi (m ((c : Thread nD τ).loc main_arg3)) (broadcastInDim S800000 ![] bcast_S_S800000 (constantI S_ 32 50000#32))) (m ((c : Thread nD τ).loc main_arg3)))) := by
  show StableHlo.after hostOps0 (W0 m ρ c) (Proc.devRef .tc main_v14) = _
  after_results
  all_goals rfl

theorem entry0_v15 (c : Dev nD) : V1 m ρ c main_v15 = extractStridedSlice S64x256 ![0, 0] (m ((c : Thread nD τ).loc main_arg4)) slices_S192x256_S64x256_0_0 := by
  show StableHlo.after hostOps0 (W0 m ρ c) (Proc.devRef .tc main_v15) = _
  after_results
  all_goals rfl

theorem entry0_v16 (c : Dev nD) : V1 m ρ c main_v16 = extractStridedSlice S64x256 ![64, 0] (m ((c : Thread nD τ).loc main_arg4)) slices_S192x256_S64x256_64_0 := by
  show StableHlo.after hostOps0 (W0 m ρ c) (Proc.devRef .tc main_v16) = _
  after_results
  all_goals rfl

theorem entry0_v17 (c : Dev nD) : V1 m ρ c main_v17 = extractStridedSlice S64x256 ![128, 0] (m ((c : Thread nD τ).loc main_arg4)) slices_S192x256_S64x256_128_0 := by
  show StableHlo.after hostOps0 (W0 m ρ c) (Proc.devRef .tc main_v17) = _
  after_results
  all_goals rfl

theorem entry0_v18 (c : Dev nD) : V1 m ρ c main_v18 = shapeCast S1x256 (m ((c : Thread nD τ).loc main_arg5)) shapeCasts_S256_S1x256 := by
  show StableHlo.after hostOps0 (W0 m ρ c) (Proc.devRef .tc main_v18) = _
  after_results
  all_goals rfl

theorem entry0_v19 (c : Dev nD) : V1 m ρ c main_v19 = shapeCast S1x64 (m ((c : Thread nD τ).loc main_arg7)) shapeCasts_S64_S1x64 := by
  show StableHlo.after hostOps0 (W0 m ρ c) (Proc.devRef .tc main_v19) = _
  after_results
  all_goals rfl

/-! ## At the second region's entry -/

/-- A buffer the first region does not touch holds, at its exit, what the first stretch left. -/
theorem launch_arg3 (c : Dev nD) : W2 m ρ c (Proc.devRef .tc main_arg3) = (m ((c : Thread nD τ).loc main_arg3)) := by
  rw [W2_of_ne m ρ c main_arg3 (by decide)]
  show StableHlo.after hostOps0 (W0 m ρ c) (Proc.devRef .tc main_arg3) = _
  after_results
  all_goals rfl
theorem launch_arg8 (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results
  all_goals rfl
theorem launch_arg9 (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results
  all_goals rfl
theorem launch_arg11 (c : Dev nD) : W2 m ρ c (Proc.devRef .tc main_arg11) = (m ((c : Thread nD τ).loc main_arg11)) := by
  rw [W2_of_ne m ρ c main_arg11 (by decide)]
  show StableHlo.after hostOps0 (W0 m ρ c) (Proc.devRef .tc main_arg11) = _
  after_results
  all_goals rfl

theorem entry1_arg0 (c : Dev nD) : V3 m ρ c main_arg0 = (m ((c : Thread nD τ).loc main_arg0)) :=
  ((W4_arr m ρ c 0).trans (((dat1 (V3 m ρ) c).arrAt_in 0 rfl _).trans (A_eq1 (V3 m ρ) c 0))).symm.trans (W4_main_arg0 m ρ c)

theorem entry1_arg10 (c : Dev nD) : V3 m ρ c main_arg10 = (m ((c : Thread nD τ).loc main_arg10)) :=
  ((W4_arr m ρ c 5).trans (((dat1 (V3 m ρ) c).arrAt_in 5 rfl _).trans (A_eq1 (V3 m ρ) c 5))).symm.trans (W4_main_arg10 m ρ c)

/-- The aggregated messages: zeros, with the first region's result rows added at the receiver indices. -/
theorem entry1_v24 (c : Dev nD) : V3 m ρ c main_v24
    = Host.scatterAdd scatter_S50000x64_S800000x1_S800000x64_1_0_0_1 (broadcastInDim S50000x64 ![] bcast_S_S50000x64 (constant (F := Ideal) S_ .f32 0x00000000#32))
        (broadcastInDim S800000x1 ![0] bcast_S800000_S800000x1_0 (m ((c : Thread nD τ).loc main_arg3)))
        (extf .f32 ((dat0 (V1 m ρ) c).arrAt 9 cfg0.N) bitsLt_bf16_f32) := by
  show StableHlo.after hostOps1 (W2 m ρ c) (Proc.devRef .tc main_v24) = _
  after_results
  rw [launch_arg3, W2_arr m ρ c 9]

theorem entry1_v25 (c : Dev nD) : V3 m ρ c main_v25 = extractStridedSlice S64x256 ![0, 0] (m ((c : Thread nD τ).loc main_arg8)) slices_S128x256_S64x256_0_0 := by
  show StableHlo.after hostOps1 (W2 m ρ c) (Proc.devRef .tc main_v25) = _
  after_results
  rw [launch_arg8]

theorem entry1_v26 (c : Dev nD) : V3 m ρ c main_v26 = extractStridedSlice S64x256 ![64, 0] (m ((c : Thread nD τ).loc main_arg8)) slices_S128x256_S64x256_64_0 := by
  show StableHlo.after hostOps1 (W2 m ρ c) (Proc.devRef .tc main_v26) = _
  after_results
  rw [launch_arg8]

theorem entry1_v27 (c : Dev nD) : V3 m ρ c main_v27 = shapeCast S1x256 (m ((c : Thread nD τ).loc main_arg9)) shapeCasts_S256_S1x256 := by
  show StableHlo.after hostOps1 (W2 m ρ c) (Proc.devRef .tc main_v27) = _
  after_results
  rw [launch_arg9]
  rfl

theorem entry1_v28 (c : Dev nD) : V3 m ρ c main_v28 = shapeCast S1x64 (m ((c : Thread nD τ).loc main_arg11)) shapeCasts_S64_S1x64 := by
  show StableHlo.after hostOps1 (W2 m ρ c) (Proc.devRef .tc main_v28) = _
  after_results
  rw [launch_arg11]
  rfl

end Cert.KernelIdeal.HostSide

end
-- ==== Proof.LibConcatCols.lean ====
/-
  Two arrays joined side by side, read at an index given by its coordinates.

  An [a, b1] array and an [a, b2] array joined along the column axis give an [a, b] array (b = b1 + b2) whose
  entry at row p and column k is the first array's entry (p, k) when k < b1, and the second array's entry
  (p, k - b1) otherwise.
-/
import Idealize.ShloMosaic.Lib.Pipeline.Value
import Idealize.ShloMosaic.Lib.ValueIdx

noncomputable section

namespace Cert.LibConcatCols

open Idealize.ShloMosaic Idealize.ShloMosaic.ValueIdx

variable {α : Type}

/-- A column of the joined array that lies in the first piece reads the first piece at the same row and column. -/
theorem concatCols_left {a b1 b2 b : ℕ} (x₁ : (⟨2, ![a, b1]⟩ : Shape).Idx → α) (x₂ : (⟨2, ![a, b2]⟩ : Shape).Idx → α)
    (h : Shape.Concatenates [(⟨2, ![a, b1]⟩ : Shape), ⟨2, ![a, b2]⟩] ⟨2, ![a, b]⟩ 1) (p : Fin a) (k : Fin b)
    (hk : k.val < b1) :
    concatenate ⟨2, ![a, b]⟩ 1 [⟨⟨2, ![a, b1]⟩, x₁⟩, ⟨⟨2, ![a, b2]⟩, x₂⟩] h (ix2 p k) = x₁ (ix2 p ⟨k.val, hk⟩) := by
  refine concatenate_pair_apply_left (1 : Fin 2) x₁ x₂ h (ix2 p k) rfl (ix2 p ⟨k.val, hk⟩) fun ax => ?_
  match ax with
  | ⟨0, _⟩ => rfl
  | ⟨1, _⟩ => rfl

/-- A column of the joined array that lies past the first piece reads the second piece at the same row, the
    column less the first piece's width. -/
theorem concatCols_right {a b1 b2 b : ℕ} (x₁ : (⟨2, ![a, b1]⟩ : Shape).Idx → α) (x₂ : (⟨2, ![a, b2]⟩ : Shape).Idx → α)
    (h : Shape.Concatenates [(⟨2, ![a, b1]⟩ : Shape), ⟨2, ![a, b2]⟩] ⟨2, ![a, b]⟩ 1) (p : Fin a) (k : Fin b)
    (hk : b1 ≤ k.val) (hk2 : k.val - b1 < b2) :
    concatenate ⟨2, ![a, b]⟩ 1 [⟨⟨2, ![a, b1]⟩, x₁⟩, ⟨⟨2, ![a, b2]⟩, x₂⟩] h (ix2 p k) = x₂ (ix2 p ⟨k.val - b1, hk2⟩) := by
  refine concatenate_pair_apply_right (1 : Fin 2) x₁ x₂ h (ix2 p k) rfl rfl (ix2 p ⟨k.val - b1, hk2⟩) (fun ax hax => ?_) ?_
  · match ax with
    | ⟨0, _⟩ => rfl
    | ⟨1, _⟩ => exact absurd rfl hax
  · show k.val - b1 + b1 = k.val
    omega

/-- The two arrays side by side as one function of the row and the column. -/
def catCols {a b1 b2 b : ℕ} (hb : b = b1 + b2) (x₁ : (⟨2, ![a, b1]⟩ : Shape).Idx → α) (x₂ : (⟨2, ![a, b2]⟩ : Shape).Idx → α)
    (p : Fin a) (k : Fin b) : α :=
  if hk : k.val < b1 then x₁ (ix2 p ⟨k.val, hk⟩) else x₂ (ix2 p ⟨k.val - b1, by have := k.isLt; omega⟩)

/-- The joined array is that function. -/
theorem concatCols_apply {a b1 b2 b : ℕ} (hb : b = b1 + b2) (x₁ : (⟨2, ![a, b1]⟩ : Shape).Idx → α)
    (x₂ : (⟨2, ![a, b2]⟩ : Shape).Idx → α)
    (h : Shape.Concatenates [(⟨2, ![a, b1]⟩ : Shape), ⟨2, ![a, b2]⟩] ⟨2, ![a, b]⟩ 1) (p : Fin a) (k : Fin b) :
    concatenate ⟨2, ![a, b]⟩ 1 [⟨⟨2, ![a, b1]⟩, x₁⟩, ⟨⟨2, ![a, b2]⟩, x₂⟩] h (ix2 p k) = catCols hb x₁ x₂ p k := by
  unfold catCols
  by_cases hk : k.val < b1
  · rw [dif_pos hk]; exact concatCols_left x₁ x₂ h p k hk
  · rw [dif_neg hk]; exact concatCols_right x₁ x₂ h p k (Nat.le_of_not_lt hk) _

end Cert.LibConcatCols

end
-- ==== Proof.LibConcatCols3.lean ====
/-
  Three arrays joined side by side, read at an index given by its coordinates.

  An [a, b1], an [a, b2] and an [a, b3] array joined along the column axis give an [a, b] array whose entry at row p
  reads the first array at column k for the first b1 columns, the second array at column k for the columns b1 + k,
  and the third array at column k for the columns b1 + b2 + k.
-/
import Idealize.ShloMosaic.Lib.Pipeline.Value
import Idealize.ShloMosaic.Lib.ValueIdx

noncomputable section

namespace Cert.LibConcatCols3

open Idealize.ShloMosaic Idealize.ShloMosaic.ValueIdx

variable {α : Type}

/-- A column of the first piece. -/
theorem concatCols3_fst {a b1 b2 b3 b : ℕ} (x₁ : (⟨2, ![a, b1]⟩ : Shape).Idx → α) (x₂ : (⟨2, ![a, b2]⟩ : Shape).Idx → α)
    (x₃ : (⟨2, ![a, b3]⟩ : Shape).Idx → α)
    (h : Shape.Concatenates [(⟨2, ![a, b1]⟩ : Shape), ⟨2, ![a, b2]⟩, ⟨2, ![a, b3]⟩] ⟨2, ![a, b]⟩ 1) (p : Fin a) (k : Fin b1)
    (hk : k.val < b) :
    concatenate ⟨2, ![a, b]⟩ 1 [⟨⟨2, ![a, b1]⟩, x₁⟩, ⟨⟨2, ![a, b2]⟩, x₂⟩, ⟨⟨2, ![a, b3]⟩, x₃⟩] h (ix2 p ⟨k.val, hk⟩)
      = x₁ (ix2 p k) := by
  refine concatenate_apply_piece (t := ⟨2, ![a, b]⟩) (1 : Fin 2) ([⟨⟨2, ![a, b1]⟩, x₁⟩, ⟨⟨2, ![a, b2]⟩, x₂⟩, ⟨⟨2, ![a, b3]⟩, x₃⟩] : List ((s : Shape) × (s.Idx → α))) h (ix2 p ⟨k.val, hk⟩) 0 (show 0 < 3 by omega) ⟨2, ![a, b1]⟩ x₁ rfl rfl 0 rfl
    (ix2 p k) (fun ax hax => ?_) (Nat.zero_add _)
  match ax with
  | ⟨0, _⟩ => rfl
  | ⟨1, _⟩ => exact absurd rfl hax

/-- A column of the second piece. -/
theorem concatCols3_snd {a b1 b2 b3 b : ℕ} (x₁ : (⟨2, ![a, b1]⟩ : Shape).Idx → α) (x₂ : (⟨2, ![a, b2]⟩ : Shape).Idx → α)
    (x₃ : (⟨2, ![a, b3]⟩ : Shape).Idx → α)
    (h : Shape.Concatenates [(⟨2, ![a, b1]⟩ : Shape), ⟨2, ![a, b2]⟩, ⟨2, ![a, b3]⟩] ⟨2, ![a, b]⟩ 1) (p : Fin a) (k : Fin b2)
    (hk : b1 + k.val < b) :
    concatenate ⟨2, ![a, b]⟩ 1 [⟨⟨2, ![a, b1]⟩, x₁⟩, ⟨⟨2, ![a, b2]⟩, x₂⟩, ⟨⟨2, ![a, b3]⟩, x₃⟩] h (ix2 p ⟨b1 + k.val, hk⟩)
      = x₂ (ix2 p k) := by
  refine concatenate_apply_piece (t := ⟨2, ![a, b]⟩) (1 : Fin 2) ([⟨⟨2, ![a, b1]⟩, x₁⟩, ⟨⟨2, ![a, b2]⟩, x₂⟩, ⟨⟨2, ![a, b3]⟩, x₃⟩] : List ((s : Shape) × (s.Idx → α))) h (ix2 p ⟨b1 + k.val, hk⟩) 1 (show 1 < 3 by omega) ⟨2, ![a, b2]⟩ x₂ rfl rfl b1 ?_
    (ix2 p k) (fun ax hax => ?_) rfl
  · show [b1].sum = b1
    simp
  · match ax with
    | ⟨0, _⟩ => rfl
    | ⟨1, _⟩ => exact absurd rfl hax

/-- A column of the third piece. -/
theorem concatCols3_trd {a b1 b2 b3 b : ℕ} (x₁ : (⟨2, ![a, b1]⟩ : Shape).Idx → α) (x₂ : (⟨2, ![a, b2]⟩ : Shape).Idx → α)
    (x₃ : (⟨2, ![a, b3]⟩ : Shape).Idx → α)
    (h : Shape.Concatenates [(⟨2, ![a, b1]⟩ : Shape), ⟨2, ![a, b2]⟩, ⟨2, ![a, b3]⟩] ⟨2, ![a, b]⟩ 1) (p : Fin a) (k : Fin b3)
    (hk : b1 + b2 + k.val < b) :
    concatenate ⟨2, ![a, b]⟩ 1 [⟨⟨2, ![a, b1]⟩, x₁⟩, ⟨⟨2, ![a, b2]⟩, x₂⟩, ⟨⟨2, ![a, b3]⟩, x₃⟩] h (ix2 p ⟨b1 + b2 + k.val, hk⟩)
      = x₃ (ix2 p k) := by
  refine concatenate_apply_piece (t := ⟨2, ![a, b]⟩) (1 : Fin 2) ([⟨⟨2, ![a, b1]⟩, x₁⟩, ⟨⟨2, ![a, b2]⟩, x₂⟩, ⟨⟨2, ![a, b3]⟩, x₃⟩] : List ((s : Shape) × (s.Idx → α))) h (ix2 p ⟨b1 + b2 + k.val, hk⟩) 2 (show 2 < 3 by omega) ⟨2, ![a, b3]⟩ x₃ rfl rfl (b1 + b2) ?_
    (ix2 p k) (fun ax hax => ?_) rfl
  · show [b1, b2].sum = b1 + b2
    simp
  · match ax with
    | ⟨0, _⟩ => rfl
    | ⟨1, _⟩ => exact absurd rfl hax

end Cert.LibConcatCols3

end
-- ==== Proof.Splits.lean ====
/-
  The kernels' split first layers against the reference's concatenated ones.

  The message kernel multiplies the edge features, the sender rows and the receiver rows by the rows 0–63, 64–127 and
  128–191 of the first weight and adds the three products; the reference joins the three arrays side by side and
  multiplies by the whole weight. A sum over 192 columns is the sum of its three blocks of 64, so the two
  pre-activations are equal at every (row, hidden unit). The same holds for the update kernel with two blocks. The
  bias enters as a [1, n] row on one side and as a vector on the other.
-/
import proofs.«173070_j41008347742228_2_alg».proof.Proof.Payloads
import proofs.«173070_j41008347742228_2_alg».proof.Proof.LibConcatCols
import proofs.«173070_j41008347742228_2_alg».proof.Proof.LibConcatCols3
import Idealize.ShloMosaic.Lib.ValueLayout

noncomputable section

namespace Cert.KernelIdeal.Splits

open Idealize.ShloMosaic Idealize.ShloMosaic.ValueIdx Cert.KernelIdeal.Payloads Cert.LibConcatCols Cert.LibConcatCols3

/-- The message pre-activation: three products over 64 features each are one product over the 192 joined features. -/
theorem msgPre_eq_first {R : ℕ} (e hs hr : (⟨2, ![R, 64]⟩ : Shape).Idx → EReal) (W : (⟨2, ![192, 256]⟩ : Shape).Idx → EReal)
    (b1 : (⟨1, ![256]⟩ : Shape).Idx → EReal)
    (hc : Shape.Concatenates [(⟨2, ![R, 64]⟩ : Shape), ⟨2, ![R, 64]⟩, ⟨2, ![R, 64]⟩] ⟨2, ![R, 192]⟩ 1)
    (h0 : (⟨2, ![192, 256]⟩ : Shape).Slices ![0, 0] ⟨2, ![64, 256]⟩)
    (h1 : (⟨2, ![192, 256]⟩ : Shape).Slices ![64, 0] ⟨2, ![64, 256]⟩)
    (h2 : (⟨2, ![192, 256]⟩ : Shape).Slices ![128, 0] ⟨2, ![64, 256]⟩)
    (hb : (⟨1, ![256]⟩ : Shape).ShapeCasts ⟨2, ![1, 256]⟩) (p : Fin R) (q : Fin 256) :
    msgPre e hs hr (extractStridedSlice ⟨2, ![64, 256]⟩ ![0, 0] W h0) (extractStridedSlice ⟨2, ![64, 256]⟩ ![64, 0] W h1)
        (extractStridedSlice ⟨2, ![64, 256]⟩ ![128, 0] W h2) (shapeCast ⟨2, ![1, 256]⟩ b1 hb) p q
      = Dense.first (fun p k => concatenate ⟨2, ![R, 192]⟩ 1 [⟨⟨2, ![R, 64]⟩, e⟩, ⟨⟨2, ![R, 64]⟩, hs⟩, ⟨⟨2, ![R, 64]⟩, hr⟩] hc (ix2 p k))
          W (fun q => b1 (ix1 q)) p q := by
  unfold msgPre Dense.first
  rw [Dense.sum_192, shapeCast_a_1a_apply]
  simp only [slice2_axis0_eq]
  refine congrArg (· + _) (congrArg₂ (· + ·) (congrArg₂ (· + ·) (Finset.sum_congr rfl fun k _ => ?_)
    (Finset.sum_congr rfl fun k _ => ?_)) (Finset.sum_congr rfl fun k _ => ?_))
  · exact congrArg₂ (· * ·) (concatCols3_fst e hs hr hc p k (by have := k.isLt; omega)).symm
      (congrArg (fun r => W (ix2 r q)) (Fin.ext (Nat.zero_add _)))
  · exact congrArg₂ (· * ·) (concatCols3_snd e hs hr hc p k (by have := k.isLt; omega)).symm rfl
  · exact congrArg₂ (· * ·) (concatCols3_trd e hs hr hc p k (by have := k.isLt; omega)).symm rfl

/-- The update pre-activation: two products over 64 features each are one product over the 128 joined features. -/
theorem updPre_eq_first {R : ℕ} (h agg : (⟨2, ![R, 64]⟩ : Shape).Idx → EReal) (W : (⟨2, ![128, 256]⟩ : Shape).Idx → EReal)
    (b1 : (⟨1, ![256]⟩ : Shape).Idx → EReal)
    (hc : Shape.Concatenates [(⟨2, ![R, 64]⟩ : Shape), ⟨2, ![R, 64]⟩] ⟨2, ![R, 128]⟩ 1)
    (h0 : (⟨2, ![128, 256]⟩ : Shape).Slices ![0, 0] ⟨2, ![64, 256]⟩)
    (h1 : (⟨2, ![128, 256]⟩ : Shape).Slices ![64, 0] ⟨2, ![64, 256]⟩)
    (hb : (⟨1, ![256]⟩ : Shape).ShapeCasts ⟨2, ![1, 256]⟩) (p : Fin R) (q : Fin 256) :
    updPre h agg (extractStridedSlice ⟨2, ![64, 256]⟩ ![0, 0] W h0) (extractStridedSlice ⟨2, ![64, 256]⟩ ![64, 0] W h1)
        (shapeCast ⟨2, ![1, 256]⟩ b1 hb) p q
      = Dense.first (fun p k => concatenate ⟨2, ![R, 128]⟩ 1 [⟨⟨2, ![R, 64]⟩, h⟩, ⟨⟨2, ![R, 64]⟩, agg⟩] hc (ix2 p k))
          W (fun q => b1 (ix1 q)) p q := by
  unfold updPre Dense.first
  rw [Dense.sum_128, shapeCast_a_1a_apply]
  simp only [slice2_axis0_eq]
  refine congrArg (· + _) (congrArg₂ (· + ·) (Finset.sum_congr rfl fun k _ => ?_) (Finset.sum_congr rfl fun k _ => ?_))
  · exact congrArg₂ (· * ·) (concatCols_left h agg hc p ⟨k.val, by have := k.isLt; omega⟩ k.isLt).symm
      (congrArg (fun r => W (ix2 r q)) (Fin.ext (Nat.zero_add _)))
  · refine congrArg₂ (· * ·) ?_ rfl
    rw [concatCols_right h agg hc p ⟨64 + k.val, by have := k.isLt; omega⟩ (Nat.le_add_right _ _)
      (by show 64 + k.val - 64 < 64; have := k.isLt; omega)]
    exact congrArg (fun r => agg (ix2 p r)) (Fin.ext (by show k.val = 64 + k.val - 64; omega))

/-- A bias vector cast to a [1, n] row, read at its one row. -/
theorem bias_row {n : ℕ} (b : (⟨1, ![n]⟩ : Shape).Idx → EReal) (hb : (⟨1, ![n]⟩ : Shape).ShapeCasts ⟨2, ![1, n]⟩) :
    (fun j : Fin n => shapeCast ⟨2, ![1, n]⟩ b hb (ix2 (0 : Fin 1) j)) = fun j => b (ix1 j) :=
  funext fun j => shapeCast_a_1a_apply b hb 0 j

end Cert.KernelIdeal.Splits

end
-- ==== Proof.RefValue.lean ====
/-
  The reference's two perceptron stages, read at an entry.

  The messages at (row, column) are `relu(x·W₁ + b₁)·W₂ + b₂` with `x` the row of the three arrays joined side by
  side (edge features, gathered sender rows, gathered receiver rows); the result at (row, column) is the node feature
  plus the same expression with `x` the row of the node features and the aggregated messages joined side by side.
-/
import proofs.«173070_j41008347742228_2_alg».proof.Proof.Gen.ReferenceIdeal.Read
import proofs.«173070_j41008347742228_2_alg».proof.Proof.Dense

noncomputable section

namespace Cert.ReferenceIdeal.RefValue

open Idealize.ShloMosaic Idealize.ShloMosaic.ValueIdx Cert.ReferenceIdeal Cert.ReferenceIdeal.Read

/-! ## The operand indices of the products and of the bias broadcasts, by coordinates -/

theorem lidx15 (p : Fin 800000) (q : Fin 256) (k : Fin 192) : lidx_main_v15 (ix2 p q) k = ix2 p k :=
  funext fun a => Fin.ext (by match a with | ⟨0, _⟩ => rfl | ⟨1, _⟩ => rfl)
theorem ridx15 (p : Fin 800000) (q : Fin 256) (k : Fin 192) : ridx_main_v15 (ix2 p q) k = ix2 k q :=
  funext fun a => Fin.ext (by match a with | ⟨0, _⟩ => rfl | ⟨1, _⟩ => rfl)
theorem lidx20 (p : Fin 800000) (j : Fin 64) (q : Fin 256) : lidx_main_v20 (ix2 p j) q = ix2 p q :=
  funext fun a => Fin.ext (by match a with | ⟨0, _⟩ => rfl | ⟨1, _⟩ => rfl)
theorem ridx20 (p : Fin 800000) (j : Fin 64) (q : Fin 256) : ridx_main_v20 (ix2 p j) q = ix2 q j :=
  funext fun a => Fin.ext (by match a with | ⟨0, _⟩ => rfl | ⟨1, _⟩ => rfl)
theorem bias17 (p : Fin 800000) (q : Fin 256) : idx_main_v16 (idx_main_v17 (ix2 p q)) = ix1 q :=
  funext fun a => Fin.ext (by match a with | ⟨0, _⟩ => rfl)
theorem bias22 (p : Fin 800000) (j : Fin 64) : idx_main_v21 (idx_main_v22 (ix2 p j)) = ix1 j :=
  funext fun a => Fin.ext (by match a with | ⟨0, _⟩ => rfl)
theorem lidx28 (p : Fin 50000) (q : Fin 256) (k : Fin 128) : lidx_main_v28 (ix2 p q) k = ix2 p k :=
  funext fun a => Fin.ext (by match a with | ⟨0, _⟩ => rfl | ⟨1, _⟩ => rfl)
theorem ridx28 (p : Fin 50000) (q : Fin 256) (k : Fin 128) : ridx_main_v28 (ix2 p q) k = ix2 k q :=
  funext fun a => Fin.ext (by match a with | ⟨0, _⟩ => rfl | ⟨1, _⟩ => rfl)
theorem lidx33 (p : Fin 50000) (j : Fin 64) (q : Fin 256) : lidx_main_v33 (ix2 p j) q = ix2 p q :=
  funext fun a => Fin.ext (by match a with | ⟨0, _⟩ => rfl | ⟨1, _⟩ => rfl)
theorem ridx33 (p : Fin 50000) (j : Fin 64) (q : Fin 256) : ridx_main_v33 (ix2 p j) q = ix2 q j :=
  funext fun a => Fin.ext (by match a with | ⟨0, _⟩ => rfl | ⟨1, _⟩ => rfl)
theorem bias30 (p : Fin 50000) (q : Fin 256) : idx_main_v29 (idx_main_v30 (ix2 p q)) = ix1 q :=
  funext fun a => Fin.ext (by match a with | ⟨0, _⟩ => rfl)
theorem bias35 (p : Fin 50000) (j : Fin 64) : idx_main_v34 (idx_main_v35 (ix2 p j)) = ix1 j :=
  funext fun a => Fin.ext (by match a with | ⟨0, _⟩ => rfl)

/-! ## The two stages -/

/-- The messages at (p, j). -/
theorem msg_apply (x0 : (⟨S50000x64, .f32⟩ : BufTy).Contents (Elt Ideal)) (x1 : (⟨S800000x64, .f32⟩ : BufTy).Contents (Elt Ideal)) (x2 x3 : (⟨S800000, .i32⟩ : BufTy).Contents (Elt Ideal)) (x4 : (⟨S192x256, .f32⟩ : BufTy).Contents (Elt Ideal)) (x5 : (⟨S256, .f32⟩ : BufTy).Contents (Elt Ideal)) (x6 : (⟨S256x64, .f32⟩ : BufTy).Contents (Elt Ideal)) (x7 : (⟨S64, .f32⟩ : BufTy).Contents (Elt Ideal)) (p : Fin 800000) (j : Fin 64) :
    val_main_v23 (F := Ideal) x0 x1 x2 x3 x4 x5 x6 x7 (ix2 p j)
      = Dense.second (Dense.first (fun p k => val_main_v14 (F := Ideal) x0 x1 x2 x3 (ix2 p k)) x4 (fun q => x5 (ix1 q)))
          x6 (fun j => x7 (ix1 j)) p j := by
  rw [val_main_v23_apply, val_main_v20_apply, val_main_v22_apply, val_main_v21_apply, bias22, Ideal.addf_def]
  unfold Dense.second
  refine congrArg (· + _) (Finset.sum_congr rfl fun q _ => ?_)
  rw [lidx20, ridx20, val_main_v19_apply, val_main_v18_apply, val_main_v15_apply, val_main_v17_apply, val_main_v16_apply, bias17,
    val_main_call0_v0_apply, val_main_call0_cst_apply, Ideal.maximumf_def, Ideal.addf_def, Ideal.ofBits_def, Ideal.ofBits_zero_f32]
  simp only [lidx15, ridx15]
  rfl

/-- The result at (p, j). -/
theorem res_apply (x0 : (⟨S50000x64, .f32⟩ : BufTy).Contents (Elt Ideal)) (x1 : (⟨S800000x64, .f32⟩ : BufTy).Contents (Elt Ideal)) (x2 x3 : (⟨S800000, .i32⟩ : BufTy).Contents (Elt Ideal)) (x4 : (⟨S192x256, .f32⟩ : BufTy).Contents (Elt Ideal)) (x5 : (⟨S256, .f32⟩ : BufTy).Contents (Elt Ideal)) (x6 : (⟨S256x64, .f32⟩ : BufTy).Contents (Elt Ideal)) (x7 : (⟨S64, .f32⟩ : BufTy).Contents (Elt Ideal)) (x8 : (⟨S128x256, .f32⟩ : BufTy).Contents (Elt Ideal)) (x9 : (⟨S256, .f32⟩ : BufTy).Contents (Elt Ideal)) (x10 : (⟨S256x64, .f32⟩ : BufTy).Contents (Elt Ideal)) (x11 : (⟨S64, .f32⟩ : BufTy).Contents (Elt Ideal)) (p : Fin 50000) (j : Fin 64) :
    val_main_v37 (F := Ideal) x0 x1 x2 x3 x4 x5 x6 x7 x8 x9 x10 x11 (ix2 p j)
      = Dense.residual x0 (Dense.second (Dense.first (fun p k => val_main_v27 (F := Ideal) x0 x1 x2 x3 x4 x5 x6 x7 (ix2 p k)) x8
          (fun q => x9 (ix1 q))) x10 (fun j => x11 (ix1 j))) p j := by
  rw [val_main_v37_apply, val_main_v36_apply, val_main_v33_apply, val_main_v35_apply, val_main_v34_apply, bias35, Ideal.addf_def,
    Ideal.addf_def]
  unfold Dense.residual Dense.second
  refine congrArg (_ + ·) (congrArg (· + _) (Finset.sum_congr rfl fun q _ => ?_))
  rw [lidx33, ridx33, val_main_v32_apply, val_main_v31_apply, val_main_v28_apply, val_main_v30_apply, val_main_v29_apply, bias30,
    val_main_call1_v0_apply, val_main_call1_cst_apply, Ideal.maximumf_def, Ideal.addf_def, Ideal.ofBits_def, Ideal.ofBits_zero_f32]
  simp only [lidx28, ridx28]
  rfl

end Cert.ReferenceIdeal.RefValue

end
-- ==== Proof.Bridge.lean ====
/-
  The idealized kernel program's result is the reference's result, as one array of extended reals.

  Region by region: the first region's array is the reference's message stage (split first layer against the joined
  one, Splits; the gathered rows are the same gather of the same node features, a change of float format being the
  identity); the scatter-add between the regions is the reference's, applied to equal arrays; and the second region's
  array is the reference's last stage (split against joined again), the node features added on both sides.
-/
import proofs.«173070_j41008347742228_2_alg».proof.Proof.MessageRegion
import proofs.«173070_j41008347742228_2_alg».proof.Proof.UpdateRegion
import proofs.«173070_j41008347742228_2_alg».proof.Proof.KernelHost
import proofs.«173070_j41008347742228_2_alg».proof.Proof.Splits
import proofs.«173070_j41008347742228_2_alg».proof.Proof.RefValue

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Payloads Cert.KernelIdeal.HostSide

variable (m : (ℓ : Loc nD τ sig) → Buf (Elt Ideal) ℓ) (ρ : Dev nD → PrngReg)

/-- The first region's result, its float format changed back, is the reference's message stage of the arguments. -/
theorem messages_eq (c : Dev nD) :
    (extf (F := Ideal) (s := S800000x64) (φ := .bf16) .f32 ((dat0 (V1 m ρ) c).arrAt 9 cfg0.N) bitsLt_bf16_f32 : S800000x64.Idx → EReal)
      = Cert.ReferenceIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Message.final]
  funext i
  obtain ⟨p, j, rfl⟩ : ∃ (p : Fin 800000) (j : Fin 64), i = ix2 p j := ⟨i 0, i 1, eq_ix2 i⟩
  rw [Cert.ReferenceIdeal.RefValue.msg_apply]
  show Message.msgArray (V1 m ρ) c (ix2 p j) = _
  unfold Message.msgArray
  rw [entry0_arg1, entry0_arg6, entry0_v7, entry0_v14, entry0_v15, entry0_v16, entry0_v17, entry0_v18, entry0_v19]
  have hpre : ∀ (e hs hr : S800000x64.Idx → EReal) (W : S192x256.Idx → EReal) (b1 : S256.Idx → EReal),
      msgPre e hs hr (extractStridedSlice S64x256 ![0, 0] W slices_S192x256_S64x256_0_0)
          (extractStridedSlice S64x256 ![64, 0] W slices_S192x256_S64x256_64_0)
          (extractStridedSlice S64x256 ![128, 0] W slices_S192x256_S64x256_128_0) (shapeCast S1x256 b1 shapeCasts_S256_S1x256)
        = Dense.first (fun p k => concatenate Cert.ReferenceIdeal.S800000x192 1
            [⟨Cert.ReferenceIdeal.S800000x64, e⟩, ⟨Cert.ReferenceIdeal.S800000x64, hs⟩, ⟨Cert.ReferenceIdeal.S800000x64, hr⟩]
            Cert.ReferenceIdeal.Gen.concatenates_S800000x64_S800000x64_S800000x64_S800000x192_d1 (ix2 p k)) W (fun q => b1 (ix1 q)) :=
    fun e hs hr W b1 => funext fun p => funext fun q => Splits.msgPre_eq_first e hs hr W b1 _ _ _ _ _ p q
  rw [hpre, Splits.bias_row]
  rfl

/-- The second region's result array is the reference's result of the arguments. -/
theorem result_eq (c : Dev nD) :
    ((dat1 (V3 m ρ) c).arrAt 7 cfg1.N : S50000x64.Idx → EReal)
      = Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Update.final]
  funext i
  obtain ⟨p, j, rfl⟩ : ∃ (p : Fin 50000) (j : Fin 64), i = ix2 p j := ⟨i 0, i 1, eq_ix2 i⟩
  rw [Cert.ReferenceIdeal.RefValue.res_apply]
  show Update.updArray (V3 m ρ) c (ix2 p j) = _
  unfold Update.updArray
  rw [entry1_arg0, entry1_arg10, entry1_v24, entry1_v25, entry1_v26, entry1_v27, entry1_v28, messages_eq]
  have hpre : ∀ (h agg : S50000x64.Idx → EReal) (W : S128x256.Idx → EReal) (b1 : S256.Idx → EReal),
      updPre h agg (extractStridedSlice S64x256 ![0, 0] W slices_S128x256_S64x256_0_0)
          (extractStridedSlice S64x256 ![64, 0] W slices_S128x256_S64x256_64_0) (shapeCast S1x256 b1 shapeCasts_S256_S1x256)
        = Dense.first (fun p k => concatenate Cert.ReferenceIdeal.S50000x128 1
            [⟨Cert.ReferenceIdeal.S50000x64, h⟩, ⟨Cert.ReferenceIdeal.S50000x64, agg⟩]
            Cert.ReferenceIdeal.Gen.concatenates_S50000x64_S50000x64_S50000x128_d1 (ix2 p k)) W (fun q => b1 (ix1 q)) :=
    fun h agg W b1 => funext fun p => funext fun q => Splits.updPre_eq_first h agg W b1 _ _ _ _ p q
  rw [hpre, Splits.bias_row]
  rfl

end Cert.KernelIdeal.Bridge

end
-- ==== Proof.lean ====
/-
  The certificate of the graph-network block: a message perceptron over the edges, a sum of the messages at their
  receiver nodes, and an update perceptron over the nodes with a residual connection.

  The three frames are the generated ones (the reference's is its generated run with the result dropped). The ideal
  pass rewrote nothing, so the idealization claim is trivial. For the value claim both programs run (the kernel
  program's run names its result as the second region's folded write-backs, the reference's as its composed host
  term), and the two results are one array of extended reals: the kernels split each first-layer product over the
  blocks of 64 input features where the reference joins the inputs side by side, which is the same sum; every change
  of float format is the identity; the gathers, the scatter-add and the second layers are the same operations on
  equal arrays. No finiteness of the inputs is used: the only law is that a finite sum splits into blocks, which holds
  on all extended reals.
-/
import proofs.«173070_j41008347742228_2_alg».proof.Defs
import proofs.«173070_j41008347742228_2_alg».proof.Proof.Gen.Kernel
import proofs.«173070_j41008347742228_2_alg».proof.Proof.Gen.Kernel.Skeleton
import proofs.«173070_j41008347742228_2_alg».proof.Proof.Gen.Kernel.Launch
import proofs.«173070_j41008347742228_2_alg».proof.Proof.Gen.Kernel.Points
import proofs.«173070_j41008347742228_2_alg».proof.Proof.Gen.Kernel.Frame
import proofs.«173070_j41008347742228_2_alg».proof.Proof.Gen.KernelIdeal
import proofs.«173070_j41008347742228_2_alg».proof.Proof.Gen.KernelIdeal.Skeleton
import proofs.«173070_j41008347742228_2_alg».proof.Proof.Gen.KernelIdeal.Launch
import proofs.«173070_j41008347742228_2_alg».proof.Proof.Gen.KernelIdeal.Points
import proofs.«173070_j41008347742228_2_alg».proof.Proof.Gen.KernelIdeal.Frame
import proofs.«173070_j41008347742228_2_alg».proof.Proof.Gen.ReferenceIdeal
import proofs.«173070_j41008347742228_2_alg».proof.Proof.Gen.Pre_finite_inputs
import proofs.«173070_j41008347742228_2_alg».proof.Proof.Gen.ReferenceIdeal.Run
import proofs.«173070_j41008347742228_2_alg».proof.Proof.Gen.ReferenceIdeal.Read
import proofs.«173070_j41008347742228_2_alg».proof.Proof.KernelRun
import proofs.«173070_j41008347742228_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs run, and the reference's composed term is the kernel
    program's result array. -/
theorem algebraic : Cert.algebraic_KernelIdeal_ReferenceIdeal := by
  intro m ρ m' ρ' _ hagree
  refine ⟨fun c => (Cert.KernelIdeal.Gen.dat1 (Cert.KernelIdeal.Gen.V3 m ρ) c).arrAt 7 Cert.KernelIdeal.cfg1.N,
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v37_eq, a0, a1, a2, a3, a4, a5, a6, a7, a8, a9, a10, a11]
  exact (Cert.KernelIdeal.Bridge.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
